-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S2048x256 : Shape := ⟨2, ![2048, 256]⟩
abbrev S1024x512 : Shape := ⟨2, ![1024, 512]⟩
abbrev S1024 : Shape := ⟨1, ![1024]⟩
abbrev S1024x256 : Shape := ⟨2, ![1024, 256]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x256 .f32) (main_arg5 : FVec F S1024 .f32) (main_arg6 : FVec F S1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S32x2048x512 .f32) (main_arg1 : FVec F S2048x256 .f32) (main_arg2 : FVec F S1024x512 .f32) (main_arg3 : FVec F S1024 .f32) (main_arg4 : FVec F S1024x256 .f32) (main_arg5 : FVec F S1024 .f32) (main_arg6 : FVec F S1024 .f32) (main_arg7 : FVec F S1024 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S32x2048x512 : Shape := ⟨3, ![32, 2048, 512]⟩
abbrev S2048x256 : Shape := ⟨2, ![2048, 256]⟩
abbrev S1024x512 : Shape := ⟨2, ![1024, 512]⟩
abbrev S1024 : Shape := ⟨1, ![1024]⟩
abbrev S1024x256 : Shape := ⟨2, ![1024, 256]⟩
abbrev S2048x1024 : Shape := ⟨2, ![2048, 1024]⟩
abbrev S256x256 : Shape := ⟨2, ![256, 256]⟩
abbrev S256x1024 : Shape := ⟨2, ![256, 1024]⟩
abbrev S1x1024 : Shape := ⟨2, ![1, 1024]⟩
abbrev S32x2048x1024 : Shape := ⟨3, ![32, 2048, 1024]⟩
abbrev S4x256x512 : Shape := ⟨3, ![4, 256, 512]⟩
abbrev S4x256x1024 : Shape := ⟨3, ![4, 256, 1024]⟩
abbrev S1024x1024 : Shape := ⟨2, ![1024, 1024]⟩
abbrev S1x256x1024 : Shape := ⟨3, ![1, 256, 1024]⟩
abbrev S4x256 : Shape := ⟨2, ![4, 256]⟩
abbrev S4x256x1 : Shape := ⟨3, ![4, 256, 1]⟩
abbrev S1x1x1024 : Shape := ⟨3, ![1, 1, 1024]⟩

abbrev nBuf : Space → Nat
  | .hbm => 10
  | .vmem => 16
  | .smem => 0
  | _ => 0

abbrev bufTy : (tb : Table) → Fin (tcTables nBuf tb) → BufTy
  | .hbm, ⟨0, _⟩ => ⟨S32x2048x512, .f32⟩
  | .hbm, ⟨1, _⟩ => ⟨S2048x256, .f32⟩
  | .hbm, ⟨2, _⟩ => ⟨S1024x512, .f32⟩
  | .hbm, ⟨3, _⟩ => ⟨S1024, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S2048x1024, .f32⟩
  | .hbm, ⟨9, _⟩ => ⟨S32x2048x1024, .f32⟩
  | .local _ .vmem, ⟨0, _⟩ => ⟨S256x256, .f32⟩
  | .local _ .vmem, ⟨1, _⟩ => ⟨S256x256, .f32⟩
  | .local _ .vmem, ⟨2, _⟩ => ⟨S1024x256, .f32⟩
  | .local _ .vmem, ⟨3, _⟩ => ⟨S1024, .f32⟩
  | .local _ .vmem, ⟨4, _⟩ => ⟨S256x1024, .f32⟩
  | .local _ .vmem, ⟨5, _⟩ => ⟨S256x1024, .f32⟩
  | .local _ .vmem, ⟨6, _⟩ => ⟨S4x256x512, .f32⟩
  | .local _ .vmem, ⟨7, _⟩ => ⟨S4x256x512, .f32⟩
  | .local _ .vmem, ⟨8, _⟩ => ⟨S1024x512, .f32⟩
  | .local _ .vmem, ⟨9, _⟩ => ⟨S1024, .f32⟩
  | .local _ .vmem, ⟨10, _⟩ => ⟨S256x1024, .f32⟩
  | .local _ .vmem, ⟨11, _⟩ => ⟨S256x1024, .f32⟩
  | .local _ .vmem, ⟨12, _⟩ => ⟨S1024, .f32⟩
  | .local _ .vmem, ⟨13, _⟩ => ⟨S1024, .f32⟩
  | .local _ .vmem, ⟨14, _⟩ => ⟨S4x256x1024, .f32⟩
  | .local _ .vmem, ⟨15, _⟩ => ⟨S4x256x1024, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S4x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S4x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  inb_S256x256_S256x256_0_0 : ∀ a, (![0, 0] : Fin 2 → Nat) a + S256x256.size a ≤ S256x256.size a
  h_S256x256 : 0 < S256x256.numel
  inb_S1024x256_S1024x256_0_0 : ∀ a, (![0, 0] : Fin 2 → Nat) a + S1024x256.size a ≤ S1024x256.size a
  h_S1024x256 : 0 < S1024x256.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  inb_S4x256x512_S4x256x512_0_0_0 : ∀ a, (![0, 0, 0] : Fin 3 → Nat) a + S4x256x512.size a ≤ S4x256x512.size a
  h_S4x256x512 : 0 < S4x256x512.numel
  shapeCasts_S4x256x512_S1024x512 : S4x256x512.ShapeCasts S1024x512
  inb_S1024x512_S1024x512_0_0 : ∀ a, (![0, 0] : Fin 2 → Nat) a + S1024x512.size a ≤ S1024x512.size a
  h_S1024x512 : 0 < S1024x512.numel
  broadcasts_S1x1024_S1024x1024 : S1x1024.Broadcasts S1024x1024
  shapeCasts_S1024x1024_S4x256x1024 : S1024x1024.ShapeCasts S4x256x1024
  shapeCasts_S256x1024_S256x1024 : S256x1024.ShapeCasts S256x1024
  shapeCasts_S256x1024_S1x256x1024 : S256x1024.ShapeCasts S1x256x1024
  broadcasts_S1x256x1024_S4x256x1024 : S1x256x1024.Broadcasts S4x256x1024
  reduces_S4x256x1024_S4x256 : S4x256x1024.Reduces [2] S4x256
  shapeCasts_S4x256_S4x256x1 : S4x256.ShapeCasts S4x256x1
  broadcasts_S4x256x1_S4x256x1024 : S4x256x1.Broadcasts S4x256x1024
  shapeCasts_S1024_S1x1x1024 : S1024.ShapeCasts S1x1x1024
  broadcasts_S1x1x1024_S4x256x1024 : S1x1x1024.Broadcasts S4x256x1024
  inb_S4x256x1024_S4x256x1024_0_0_0 : ∀ a, (![0, 0, 0] : Fin 3 → Nat) a + S4x256x1024.size a ≤ S4x256x1024.size a
  h_S4x256x1024 : 0 < S4x256x1024.numel
  dot_S256x256_S1024x256_S256x1024_1_1_0_0_n_n_wf : DotDims.WF S256x256 S1024x256 S256x1024 [1] [1] [0] [0] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S2048x256.size a
  hwx0_0 : ∀ i : grid0.Coords, EltTy.bits .f32 = 32 ∨ (Rect.block (s := S2048x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S2048x1024.size a
  hwx0_3 : ∀ i : grid0.Coords, EltTy.bits .f32 = 32 ∨ (Rect.block (s := S2048x1024) S256x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x256x512.size a ≤ S32x2048x512.size a
  hwx1_0 : ∀ i : grid1.Coords, EltTy.bits .f32 = 32 ∨ (Rect.block (s := S32x2048x512) S4x256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .f32 = 32 ∨ (Rect.block (s := S1024x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S2048x1024.size a
  hwx1_3 : ∀ i : grid1.Coords, EltTy.bits .f32 = 32 ∨ (Rect.block (s := S2048x1024) S256x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024.size a ≤ S1024.size a
  hwx1_5 : ∀ i : grid1.Coords, EltTy.bits .f32 = 32 ∨ (Rect.block (s := S1024) S1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4x256x1024.size a ≤ S32x2048x1024.size a
  hwx1_6 : ∀ i : grid1.Coords, EltTy.bits .f32 = 32 ∨ (Rect.block (s := S32x2048x1024) S4x256x1024.size (cc1_transform_6 i) (hinb1_6 i)).WholeWords (EltTy.packing .f32)

variable [Facts₀]

def dot_S256x256_S1024x256_S256x1024_1_1_0_0_n_n : DotDims S256x256 S1024x256 S256x1024 where
  lhsContracting := [1]
  rhsContracting := [1]
  lhsNonContracting := [0]
  rhsNonContracting := [0]
  lhsBatch := []
  rhsBatch := []
  wf := dot_S256x256_S1024x256_S256x1024_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg1) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S4x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S256x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1) S4x256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S32x2048x512 : Shape := ⟨3, ![32, 2048, 512]⟩
abbrev S2048x256 : Shape := ⟨2, ![2048, 256]⟩
abbrev S1024x512 : Shape := ⟨2, ![1024, 512]⟩
abbrev S1024 : Shape := ⟨1, ![1024]⟩
abbrev S1024x256 : Shape := ⟨2, ![1024, 256]⟩
abbrev S32x2048x1024 : Shape := ⟨3, ![32, 2048, 1024]⟩
abbrev S1x1x1024 : Shape := ⟨3, ![1, 1, 1024]⟩
abbrev S_ : Shape := ⟨0, ![]⟩
abbrev S2048x1024 : Shape := ⟨2, ![2048, 1024]⟩
abbrev S1x1024 : Shape := ⟨2, ![1, 1024]⟩
abbrev S1x2048x1024 : Shape := ⟨3, ![1, 2048, 1024]⟩
abbrev S32x2048 : Shape := ⟨2, ![32, 2048]⟩
abbrev S32x2048x1 : Shape := ⟨3, ![32, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S2048x256, .f32⟩
  | .hbm, ⟨2, _⟩ => ⟨S1024x512, .f32⟩
  | .hbm, ⟨3, _⟩ => ⟨S1024, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S32x2048x1024, .f32⟩
  | .hbm, ⟨9, _⟩ => ⟨S1x1x1024, .f32⟩
  | .hbm, ⟨10, _⟩ => ⟨S32x2048x1024, .f32⟩
  | .hbm, ⟨11, _⟩ => ⟨S32x2048x1024, .f32⟩
  | .hbm, ⟨12, _⟩ => ⟨S_, .f32⟩
  | .hbm, ⟨13, _⟩ => ⟨S32x2048x1024, .f32⟩
  | .hbm, ⟨14, _⟩ => ⟨S32x2048x1024, .i1⟩
  | .hbm, ⟨15, _⟩ => ⟨S_, .f32⟩
  | .hbm, ⟨16, _⟩ => ⟨S32x2048x1024, .f32⟩
  | .hbm, ⟨17, _⟩ => ⟨S32x2048x1024, .f32⟩
  | .hbm, ⟨18, _⟩ => ⟨S32x2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S1x2048x1024, .f32⟩
  | .hbm, ⟨24, _⟩ => ⟨S32x2048x1024, .f32⟩
  | .hbm, ⟨25, _⟩ => ⟨S32x2048x1024, .f32⟩
  | .hbm, ⟨26, _⟩ => ⟨S_, .f32⟩
  | .hbm, ⟨27, _⟩ => ⟨S32x2048, .f32⟩
  | .hbm, ⟨28, _⟩ => ⟨S32x2048x1, .f32⟩
  | .hbm, ⟨29, _⟩ => ⟨S_, .f32⟩
  | .hbm, ⟨30, _⟩ => ⟨S32x2048x1, .f32⟩
  | .hbm, ⟨31, _⟩ => ⟨S32x2048x1, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S_, .f32⟩
  | .hbm, ⟨36, _⟩ => ⟨S32x2048, .f32⟩
  | .hbm, ⟨37, _⟩ => ⟨S32x2048x1, .f32⟩
  | .hbm, ⟨38, _⟩ => ⟨S_, .f32⟩
  | .hbm, ⟨39, _⟩ => ⟨S32x2048x1, .f32⟩
  | .hbm, ⟨40, _⟩ => ⟨S32x2048x1, .f32⟩
  | .hbm, ⟨41, _⟩ => ⟨S32x2048x1024, .f32⟩
  | .hbm, ⟨42, _⟩ => ⟨S32x2048x1024, .f32⟩
  | .hbm, ⟨43, _⟩ => ⟨S_, .f32⟩
  | .hbm, ⟨44, _⟩ => ⟨S32x2048x1, .f32⟩
  | .hbm, ⟨45, _⟩ => ⟨S32x2048x1, .f32⟩
  | .hbm, ⟨46, _⟩ => ⟨S32x2048x1, .f32⟩
  | .hbm, ⟨47, _⟩ => ⟨S32x2048x1024, .f32⟩
  | .hbm, ⟨48, _⟩ => ⟨S32x2048x1024, .f32⟩
  | .hbm, ⟨49, _⟩ => ⟨S1x1x1024, .f32⟩
  | .hbm, ⟨50, _⟩ => ⟨S32x2048x1024, .f32⟩
  | .hbm, ⟨51, _⟩ => ⟨S32x2048x1024, .f32⟩
  | .hbm, ⟨52, _⟩ => ⟨S1x1x1024, .f32⟩
  | .hbm, ⟨53, _⟩ => ⟨S32x2048x1024, .f32⟩
  | .hbm, ⟨54, _⟩ => ⟨S32x2048x1024, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S32x2048x1024_0_1_2 : S1x1x1024.BroadcastsInDim S32x2048x1024 (![0, 1, 2] : Fin 3 → Fin S32x2048x1024.rank)
  bcast_S_S32x2048x1024 : S_.BroadcastsInDim S32x2048x1024 (![] : Fin 0 → Fin S32x2048x1024.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S2048x1024_S1x2048x1024_1_2 : S2048x1024.BroadcastsInDim S1x2048x1024 (![1, 2] : Fin 2 → Fin S1x2048x1024.rank)
  bcast_S1x2048x1024_S32x2048x1024_0_1_2 : S1x2048x1024.BroadcastsInDim S32x2048x1024 (![0, 1, 2] : Fin 3 → Fin S32x2048x1024.rank)
  reducesTo_S32x2048x1024_S32x2048_d2 : S32x2048x1024.ReducesTo [2] S32x2048
  h_S_ : 0 < S_.numel
  bcast_S32x2048_S32x2048x1_0_1 : S32x2048.BroadcastsInDim S32x2048x1 (![0, 1] : Fin 2 → Fin S32x2048x1.rank)
  bcast_S_S32x2048x1 : S_.BroadcastsInDim S32x2048x1 (![] : Fin 0 → Fin S32x2048x1.rank)
  bcast_S32x2048x1_S32x2048x1024_0_1_2 : S32x2048x1.BroadcastsInDim S32x2048x1024 (![0, 1, 2] : Fin 3 → Fin S32x2048x1024.rank)
  dot_S32x2048x512_S1024x512_S32x2048x1024_2_1_01_0_n_n_wf : DotDims.WF S32x2048x512 S1024x512 S32x2048x1024 [2] [1] [0, 1] [0] [] []
  dot_S2048x256_S1024x256_S2048x1024_1_1_0_0_n_n_wf : DotDims.WF S2048x256 S1024x256 S2048x1024 [1] [1] [0] [0] [] []

variable [Facts₀]

def dot_S32x2048x512_S1024x512_S32x2048x1024_2_1_01_0_n_n : DotDims S32x2048x512 S1024x512 S32x2048x1024 where
  lhsContracting := [2]
  rhsContracting := [1]
  lhsNonContracting := [0, 1]
  rhsNonContracting := [0]
  lhsBatch := []
  rhsBatch := []
  wf := dot_S32x2048x512_S1024x512_S32x2048x1024_2_1_01_0_n_n_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

class Facts : Prop extends Facts₀ where

variable [Facts]
-- ==== Proof.KernelRun.lean ====
/-
  The program's run with its result named: every weakly fair execution of the two launches terminates, nothing
  faults, the result array ends at the contents the second launch's write-backs leave (the fold of both regions'
  exits from the launch memory), and the eight argument arrays end as they were launched.
-/
import proofs.«162037_j47029891891861_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the last thread state holds every unscoped buffer at the contents after the second region, so the final
    memory reads the result array there and each argument, walked back through both regions, at its launch contents. -/
theorem run : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c),
       (h c _ (mem_uc main_arg7 (by decide))).trans (W2_main_arg7 m ρ c)⟩)

end Cert.KernelIdeal.Named

end
-- ==== Proof.Spec.lean ====
/-
  The mathematics both programs compute, entry by entry, on the extended reals.

  For a batch entry `b`, a row `n` and a feature `d`:
    * a dense layer:      y(b,n,d) = Σ_f x(b,n,f) · W(d,f) + bias(d);
    * a leaky rectifier:  a = y where y ≥ 0, and slope · y elsewhere (slope the f32 nearest 0.2);
    * a gate:             z(b,n,d) = a(b,n,d) · gate(n,d), the gate itself a dense layer of a second input;
    * a row normalisation over the 1024 features: with μ = (Σ_d z) / 1024 and v = (Σ_d (z − μ)²) / 1024,
      out(b,n,d) = (z − μ) · rsqrt(v + ε) · γ(d) + β(d).
  Every literal stays the f32 word both programs print; none is evaluated.
-/
import Idealize.ShloMosaic.PureOps.Ideal
import Idealize.ShloMosaic.PureOps.Ideal.Laws
import Idealize.ShloMosaic.Lib.ValueIdx

noncomputable section

namespace Cert.GatedNorm

open Idealize.ShloMosaic Idealize.ShloMosaic.ValueIdx

/-- A dense layer's entry: the sum of products over the contracted axis, plus the bias. -/
def dense {K : Nat} (x w : Fin K → EReal) (b : EReal) : EReal := (∑ k : Fin K, x k * w k) + b

/-- The leaky rectifier: the value itself where it is at least zero, the slope literal times it elsewhere. -/
def leaky (y : EReal) : EReal :=
  Scalar.select (Ideal.cmp .oge y (Ideal.ofBits .f32 0x00000000#32)) y (Ideal.ofBits .f32 0x3E4CCCCD#32 * y)

/-- The mean of a row of 1024 entries: the sum divided by the literal 1024. -/
def rowMean (z : Fin 1024 → EReal) : EReal := Ideal.div (∑ k : Fin 1024, z k) (Ideal.ofBits .f32 0x44800000#32)

/-- The (biased) variance of the row: the mean of the squared deviations from the row's mean. -/
def rowVar (z : Fin 1024 → EReal) : EReal :=
  Ideal.div (∑ k : Fin 1024, (z k - rowMean z) * (z k - rowMean z)) (Ideal.ofBits .f32 0x44800000#32)

/-- The normalised row at feature `d`: deviation times the reciprocal root of variance plus ε, scaled and shifted. -/
def rowNorm (z g bt : Fin 1024 → EReal) (d : Fin 1024) : EReal :=
  (z d - rowMean z) * Ideal.rsqrt (rowVar z + Ideal.ofBits .f32 0x3727C5AC#32) * g d + bt d

/-- The gate's entry `(n, d)`: a dense layer of the second input's row `n` against the weight's row `d`. -/
def gateAt (st : (⟨2, ![2048, 256]⟩ : Shape).Idx → EReal) (wc : (⟨2, ![1024, 256]⟩ : Shape).Idx → EReal)
    (bc : (⟨1, ![1024]⟩ : Shape).Idx → EReal) (n : Fin 2048) (d : Fin 1024) : EReal :=
  dense (fun k : Fin 256 => st (ix2 n k)) (fun k : Fin 256 => wc (ix2 d k)) (bc (ix1 d))

/-- The gated activation's row `(b, n)`, for any gate. -/
def gated (x : (⟨3, ![32, 2048, 512]⟩ : Shape).Idx → EReal) (wf : (⟨2, ![1024, 512]⟩ : Shape).Idx → EReal)
    (bf : (⟨1, ![1024]⟩ : Shape).Idx → EReal) (gate : Fin 2048 → Fin 1024 → EReal)
    (b : Fin 32) (n : Fin 2048) (d : Fin 1024) : EReal :=
  leaky (dense (fun f : Fin 512 => x (ix3 b n f)) (fun f : Fin 512 => wf (ix2 d f)) (bf (ix1 d))) * gate n d

/-- The result's entry `(b, n, d)`, for any gate: the gated row normalised. -/
def outAt (x : (⟨3, ![32, 2048, 512]⟩ : Shape).Idx → EReal) (wf : (⟨2, ![1024, 512]⟩ : Shape).Idx → EReal)
    (bf : (⟨1, ![1024]⟩ : Shape).Idx → EReal) (gate : Fin 2048 → Fin 1024 → EReal)
    (g bt : (⟨1, ![1024]⟩ : Shape).Idx → EReal) (b : Fin 32) (n : Fin 2048) (d : Fin 1024) : EReal :=
  rowNorm (gated x wf bf gate b n) (fun d' => g (ix1 d')) (fun d' => bt (ix1 d')) d

end Cert.GatedNorm

end
-- ==== Proof.Payload.lean ====
/-
  The two kernel bodies' stored values, read at one entry of the block, as the specification's terms of the blocks
  they load.
-/
import proofs.«162037_j47029891891861_2_alg».proof.Proof.Gen.KernelIdeal.Skeleton
import proofs.«162037_j47029891891861_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Cert.GatedNorm Idealize.ShloMosaic Idealize.ShloMosaic.ValueIdx

/-! ## The gate kernel -/

private theorem city_lhs0 (i : S256x1024.Idx) (c : dot_S256x256_S1024x256_S256x1024_1_1_0_0_n_n.contr.Idx) :
    (dot_S256x256_S1024x256_S256x1024_1_1_0_0_n_n.lhsIdx i c 0).val = (i 0).val := by
  unfold DotDims.lhsIdx
  rw [dif_neg (show ¬(0 : Fin S256x256.rank) ∈ dot_S256x256_S1024x256_S256x1024_1_1_0_0_n_n.lhsBatch by decide),
    dif_pos (show (0 : Fin S256x256.rank) ∈ dot_S256x256_S1024x256_S256x1024_1_1_0_0_n_n.lhsNonContracting by decide)]
  rfl
private theorem city_lhs1 (i : S256x1024.Idx) (c : dot_S256x256_S1024x256_S256x1024_1_1_0_0_n_n.contr.Idx) :
    (dot_S256x256_S1024x256_S256x1024_1_1_0_0_n_n.lhsIdx i c 1).val = (c ⟨0, by decide⟩).val :=
  dot_S256x256_S1024x256_S256x1024_1_1_0_0_n_n.lhsIdx_val_of_single rfl i c
private theorem city_rhs0 (i : S256x1024.Idx) (c : dot_S256x256_S1024x256_S256x1024_1_1_0_0_n_n.contr.Idx) :
    (dot_S256x256_S1024x256_S256x1024_1_1_0_0_n_n.rhsIdx i c 0).val = (i 1).val := by
  unfold DotDims.rhsIdx
  rw [dif_neg (show ¬(0 : Fin S1024x256.rank) ∈ dot_S256x256_S1024x256_S256x1024_1_1_0_0_n_n.rhsBatch by decide),
    dif_pos (show (0 : Fin S1024x256.rank) ∈ dot_S256x256_S1024x256_S256x1024_1_1_0_0_n_n.rhsNonContracting by decide)]
  rfl
private theorem city_rhs1 (i : S256x1024.Idx) (c : dot_S256x256_S1024x256_S256x1024_1_1_0_0_n_n.contr.Idx) :
    (dot_S256x256_S1024x256_S256x1024_1_1_0_0_n_n.rhsIdx i c 1).val = (c ⟨0, by decide⟩).val :=
  dot_S256x256_S1024x256_S256x1024_1_1_0_0_n_n.rhsIdx_val_of_single rfl i c

/-- The gate kernel's contraction at `(p, q)`: the sum over the shared axis of the two rows' products. -/
private theorem mm_city (v0 : FVec Ideal S256x256 .f32) (v1 : FVec Ideal S1024x256 .f32) (p : Fin 256) (q : Fin 1024) :
    matmul dot_S256x256_S1024x256_S256x1024_1_1_0_0_n_n (some .fp32) v0 v1
        (constant (F := Ideal) S256x1024 .f32 0x00000000#32) (ix2 p q)
      = ∑ k : Fin 256, v0 (ix2 p k) * v1 (ix2 q k) := by
  simp only [matmul]
  rw [Ideal.matmul_constant_zero_apply,
    ← Equiv.sum_comp (contrEquiv1 dot_S256x256_S1024x256_S256x1024_1_1_0_0_n_n 256 rfl rfl).symm]
  refine Finset.sum_congr rfl fun k _ => ?_
  have hk := contrEquiv1_symm_val dot_S256x256_S1024x256_S256x1024_1_1_0_0_n_n 256 rfl rfl k
  have el : dot_S256x256_S1024x256_S256x1024_1_1_0_0_n_n.lhsIdx (ix2 p q)
      ((contrEquiv1 dot_S256x256_S1024x256_S256x1024_1_1_0_0_n_n 256 rfl rfl).symm k) = ix2 p k :=
    funext fun a => Fin.ext (by
      match a with
      | ⟨0, _⟩ => exact city_lhs0 _ _
      | ⟨1, _⟩ => exact (city_lhs1 _ _).trans hk)
  have er : dot_S256x256_S1024x256_S256x1024_1_1_0_0_n_n.rhsIdx (ix2 p q)
      ((contrEquiv1 dot_S256x256_S1024x256_S256x1024_1_1_0_0_n_n 256 rfl rfl).symm k) = ix2 q k :=
    funext fun a => Fin.ext (by
      match a with
      | ⟨0, _⟩ => exact city_rhs0 _ _
      | ⟨1, _⟩ => exact (city_rhs1 _ _).trans hk)
  rw [el, er]

/-- A length-1024 vector viewed as one row, then repeated down 256 rows, reads its own entry `q` at `(p, q)`. -/
private theorem bias_row_256 (v : Vec Ideal S1024 .f32) (p : Fin 256) (q : Fin 1024) :
    broadcastTo S256x1024 (shapeCast S1x1024 v shapeCasts_S1024_S1x1024) broadcasts_S1x1024_S256x1024 (ix2 p q)
      = v (ix1 q) := by
  refine (broadcastTo_apply _ broadcasts_S1x1024_S256x1024 (ix2 p q) (ix2 (0 : Fin 1) q) (fun a => ?_)).trans ?_
  · match a with
    | ⟨0, _⟩ => show (0 : Nat) = if (1 : Nat) = 1 then 0 else p.val; rw [if_pos rfl]
    | ⟨1, _⟩ => show q.val = if (1024 : Nat) = 1 then 0 else q.val; rw [if_neg (by decide)]
  · refine shapeCast_apply v shapeCasts_S1024_S1x1024 (ix2 (0 : Fin 1) q) (ix1 q) ?_
    rw [Shape.rowMajor_val_one, Shape.rowMajor_val_two]
    show q.val = (0 : Nat) * 1024 + q.val
    omega

/-- The gate kernel's stored block at `(p, q)`: the dense layer of the loaded row `p` against the weight's row `q`. -/
theorem city_entry (v0 : Vec Ideal S256x256 .f32) (v1 : Vec Ideal S1024x256 .f32) (v3 : Vec Ideal S1024 .f32)
    (p : Fin 256) (q : Fin 1024) :
    k0_pay1 (F := Ideal) v0 v1 v3 (ix2 p q)
      = dense (fun k : Fin 256 => v0 (ix2 p k)) (fun k : Fin 256 => v1 (ix2 q k)) (v3 (ix1 q)) := by
  show matmul (φ₁ := .f32) (φ₂ := .f32) dot_S256x256_S1024x256_S256x1024_1_1_0_0_n_n (some .fp32) v0 v1
        (constant (F := Ideal) S256x1024 .f32 0x00000000#32) (ix2 p q)
      + broadcastTo S256x1024 (shapeCast S1x1024 v3 shapeCasts_S1024_S1x1024) broadcasts_S1x1024_S256x1024 (ix2 p q) = _
  rw [mm_city, bias_row_256]
  rfl

/-! ## The fused kernel -/

private theorem fused_lhs0 (i : S1024x1024.Idx) (c : dot_S1024x512_S1024x512_S1024x1024_1_1_0_0_n_n.contr.Idx) :
    (dot_S1024x512_S1024x512_S1024x1024_1_1_0_0_n_n.lhsIdx i c 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl
private theorem fused_lhs1 (i : S1024x1024.Idx) (c : dot_S1024x512_S1024x512_S1024x1024_1_1_0_0_n_n.contr.Idx) :
    (dot_S1024x512_S1024x512_S1024x1024_1_1_0_0_n_n.lhsIdx i c 1).val = (c ⟨0, by decide⟩).val :=
  dot_S1024x512_S1024x512_S1024x1024_1_1_0_0_n_n.lhsIdx_val_of_single rfl i c
private theorem fused_rhs0 (i : S1024x1024.Idx) (c : dot_S1024x512_S1024x512_S1024x1024_1_1_0_0_n_n.contr.Idx) :
    (dot_S1024x512_S1024x512_S1024x1024_1_1_0_0_n_n.rhsIdx i c 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl
private theorem fused_rhs1 (i : S1024x1024.Idx) (c : dot_S1024x512_S1024x512_S1024x1024_1_1_0_0_n_n.contr.Idx) :
    (dot_S1024x512_S1024x512_S1024x1024_1_1_0_0_n_n.rhsIdx i c 1).val = (c ⟨0, by decide⟩).val :=
  dot_S1024x512_S1024x512_S1024x1024_1_1_0_0_n_n.rhsIdx_val_of_single rfl i c

/-- The fused kernel's contraction at `(m, d)`: the sum over the 512 input features of the two rows' products. -/
private theorem mm_fused (u : FVec Ideal S1024x512 .f32) (w : FVec Ideal S1024x512 .f32) (m d : Fin 1024) :
    matmul dot_S1024x512_S1024x512_S1024x1024_1_1_0_0_n_n (some .fp32) u w
        (constant (F := Ideal) S1024x1024 .f32 0x00000000#32) (ix2 m d)
      = ∑ f : Fin 512, u (ix2 m f) * w (ix2 d f) := by
  simp only [matmul]
  rw [Ideal.matmul_constant_zero_apply,
    ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 m d)
      ((contrEquiv1 dot_S1024x512_S1024x512_S1024x1024_1_1_0_0_n_n 512 rfl rfl).symm k) = ix2 m k :=
    funext fun a => Fin.ext (by
      match a with
      | ⟨0, _⟩ => exact fused_lhs0 _ _
      | ⟨1, _⟩ => exact (fused_lhs1 _ _).trans hk)
  have er : dot_S1024x512_S1024x512_S1024x1024_1_1_0_0_n_n.rhsIdx (ix2 m d)
      ((contrEquiv1 dot_S1024x512_S1024x512_S1024x1024_1_1_0_0_n_n 512 rfl rfl).symm k) = ix2 d k :=
    funext fun a => Fin.ext (by
      match a with
      | ⟨0, _⟩ => exact fused_rhs0 _ _
      | ⟨1, _⟩ => exact (fused_rhs1 _ _).trans hk)
  rw [el, er]

/-- Row `a * 256 + r` of the flattened block is row `(a, r)` of the block. -/
private def flatRow (a : Fin 4) (r : Fin 256) : Fin 1024 := ⟨a.val * 256 + r.val, by omega⟩

/-- The [4,256,512] block flattened to [1024,512], read at row `a * 256 + r`. -/
private theorem flat_apply (x0 : Vec Ideal S4x256x512 .f32) (a : Fin 4) (r : Fin 256) (f : Fin 512) :
    shapeCast S1024x512 x0 shapeCasts_S4x256x512_S1024x512 (ix2 (flatRow a r) f) = x0 (ix3 a r f) := by
  refine shapeCast_apply x0 shapeCasts_S4x256x512_S1024x512 (ix2 (flatRow a r) f) (ix3 a r f) ?_
  rw [Shape.rowMajor_val_three, Shape.rowMajor_val_two]
  rfl

/-- A [1024,1024] block unflattened to [4,256,1024], read at `(a, r, d)`. -/
private theorem unflat_apply (y : FVec Ideal S1024x1024 .f32) (a : Fin 4) (r : Fin 256) (d : Fin 1024) :
    shapeCast S4x256x1024 y shapeCasts_S1024x1024_S4x256x1024 (ix3 a r d) = y (ix2 (flatRow a r) d) := by
  refine shapeCast_apply y shapeCasts_S1024x1024_S4x256x1024 (ix3 a r d) (ix2 (flatRow a r) d) ?_
  rw [Shape.rowMajor_val_three, Shape.rowMajor_val_two]
  rfl

/-- A length-1024 vector viewed as one row, then repeated down 1024 rows, reads its own entry `d` at `(m, d)`. -/
private theorem bias_row_1024 (v : Vec Ideal S1024 .f32) (m d : Fin 1024) :
    broadcastTo S1024x1024 (shapeCast S1x1024 v shapeCasts_S1024_S1x1024) broadcasts_S1x1024_S1024x1024 (ix2 m d)
      = v (ix1 d) := by
  refine (broadcastTo_apply _ broadcasts_S1x1024_S1024x1024 (ix2 m d) (ix2 (0 : Fin 1) d) (fun a => ?_)).trans ?_
  · match a with
    | ⟨0, _⟩ => show (0 : Nat) = if (1 : Nat) = 1 then 0 else m.val; rw [if_pos rfl]
    | ⟨1, _⟩ => show d.val = if (1024 : Nat) = 1 then 0 else d.val; rw [if_neg (by decide)]
  · refine shapeCast_apply v shapeCasts_S1024_S1x1024 (ix2 (0 : Fin 1) d) (ix1 d) ?_
    rw [Shape.rowMajor_val_one, Shape.rowMajor_val_two]
    show d.val = (0 : Nat) * 1024 + d.val
    omega

/-- The gate block [256,1024], given a leading unit axis and repeated over the 4 batch entries, reads `(r, d)` at
    `(a, r, d)`. -/
private theorem gate_apply (g : Vec Ideal S256x1024 .f32) (a : Fin 4) (r : Fin 256) (d : Fin 1024) :
    broadcastTo S4x256x1024
        (shapeCast S1x256x1024 (shapeCast S256x1024 g shapeCasts_S256x1024_S256x1024) shapeCasts_S256x1024_S1x256x1024)
        broadcasts_S1x256x1024_S4x256x1024 (ix3 a r d)
      = g (ix2 r d) := by
  refine (broadcastTo_apply _ broadcasts_S1x256x1024_S4x256x1024 (ix3 a r d) (ix3 (0 : Fin 1) r d) (fun c => ?_)).trans ?_
  · match c with
    | ⟨0, _⟩ => show (0 : Nat) = if (1 : Nat) = 1 then 0 else a.val; rw [if_pos rfl]
    | ⟨1, _⟩ => show r.val = if (256 : Nat) = 1 then 0 else r.val; rw [if_neg (by decide)]
    | ⟨2, _⟩ => show d.val = if (1024 : Nat) = 1 then 0 else d.val; rw [if_neg (by decide)]
  · refine (shapeCast_apply _ shapeCasts_S256x1024_S1x256x1024 (ix3 (0 : Fin 1) r d) (ix2 r d) ?_).trans ?_
    · rw [Shape.rowMajor_val_two, Shape.rowMajor_val_three]
      show r.val * 1024 + d.val = ((0 : Nat) * 256 + r.val) * 1024 + d.val
      omega
    · rw [shapeCast_self]

/-- A column [4,256,1] repeated along the 1024 features reads its entry `(a, r, 0)` at `(a, r, d)`. -/
private theorem col_apply (c : FVec Ideal S4x256x1 .f32) (a : Fin 4) (r : Fin 256) (d : Fin 1024) :
    broadcastTo S4x256x1024 c broadcasts_S4x256x1_S4x256x1024 (ix3 a r d) = c (ix3 a r (0 : Fin 1)) := by
  refine broadcastTo_apply c broadcasts_S4x256x1_S4x256x1024 (ix3 a r d) (ix3 a r (0 : Fin 1)) (fun e => ?_)
  match e with
  | ⟨0, _⟩ => show a.val = if (4 : Nat) = 1 then 0 else a.val; rw [if_neg (by decide)]
  | ⟨1, _⟩ => show r.val = if (256 : Nat) = 1 then 0 else r.val; rw [if_neg (by decide)]
  | ⟨2, _⟩ => show (0 : Nat) = if (1 : Nat) = 1 then 0 else d.val; rw [if_pos rfl]

/-- A length-1024 vector viewed as [1,1,1024] and repeated over the block reads its entry `d` at `(a, r, d)`. -/
private theorem vec_apply (v : Vec Ideal S1024 .f32) (a : Fin 4) (r : Fin 256) (d : Fin 1024) :
    broadcastTo S4x256x1024 (shapeCast S1x1x1024 v shapeCasts_S1024_S1x1x1024) broadcasts_S1x1x1024_S4x256x1024 (ix3 a r d)
      = v (ix1 d) := by
  refine (broadcastTo_apply _ broadcasts_S1x1x1024_S4x256x1024 (ix3 a r d) (ix3 (0 : Fin 1) (0 : Fin 1) d) (fun e => ?_)).trans ?_
  · match e with
    | ⟨0, _⟩ => show (0 : Nat) = if (1 : Nat) = 1 then 0 else a.val; rw [if_pos rfl]
    | ⟨1, _⟩ => show (0 : Nat) = if (1 : Nat) = 1 then 0 else r.val; rw [if_pos rfl]
    | ⟨2, _⟩ => show d.val = if (1024 : Nat) = 1 then 0 else d.val; rw [if_neg (by decide)]
  · refine shapeCast_apply v shapeCasts_S1024_S1x1x1024 (ix3 (0 : Fin 1) (0 : Fin 1) d) (ix1 d) ?_
    rw [Shape.rowMajor_val_one, Shape.rowMajor_val_three]
    show d.val = ((0 : Nat) * 1 + 0) * 1024 + d.val
    omega

/-- The sum over the 1024 features, stored as a column [4,256,1], read at `(a, r, 0)`. -/
private theorem sum_col_apply (z : FVec Ideal S4x256x1024 .f32) (a : Fin 4) (r : Fin 256) :
    shapeCast S4x256x1
        (multiReduction (F := Ideal) .add [2] S4x256 z 0x00000000#32 reduces_S4x256x1024_S4x256 (.inl rfl) rfl)
        shapeCasts_S4x256_S4x256x1 (ix3 a r (0 : Fin 1))
      = ∑ k : Fin 1024, z (ix3 a r k) := by
  refine (shapeCast_apply _ shapeCasts_S4x256_S4x256x1 (ix3 a r (0 : Fin 1)) (ix2 a r) ?_).trans ?_
  · rw [Shape.rowMajor_val_two, Shape.rowMajor_val_three]
    show a.val * 256 + r.val = (a.val * 256 + r.val) * 1 + (0 : Nat)
    omega
  · refine (Ideal.multiReduction_add_single z _ reduces_S4x256x1024_S4x256 _ _ (ix2 a r)).trans ?_
    show ∑ k : Fin 1024, z (reduces_S4x256x1024_S4x256.lift (ix2 a r) k) = _
    refine Finset.sum_congr rfl fun k _ => congrArg z ?_
    funext c
    apply Fin.ext
    match c with
    | ⟨0, _⟩ => rfl
    | ⟨1, _⟩ => rfl
    | ⟨2, _⟩ => rfl

/-- The dense layer on the flattened rows: the block [1024,1024] before the rectifier. -/
private def preAct (x0 : Vec Ideal S4x256x512 .f32) (x1 : Vec Ideal S1024x512 .f32) (x2 : Vec Ideal S1024 .f32) :
    FVec Ideal S1024x1024 .f32 :=
  addf
    (matmul (φ₁ := .f32) (φ₂ := .f32) dot_S1024x512_S1024x512_S1024x1024_1_1_0_0_n_n (some .fp32)
      (shapeCast S1024x512 x0 shapeCasts_S4x256x512_S1024x512) x1 (constant S1024x1024 .f32 0x00000000#32))
    (broadcastTo S1024x1024 (shapeCast S1x1024 x2 shapeCasts_S1024_S1x1024) broadcasts_S1x1024_S1024x1024)

/-- The leaky rectifier applied entry by entry. -/
private def rect (y : FVec Ideal S1024x1024 .f32) : FVec Ideal S1024x1024 .f32 :=
  select (cmpf .oge y (broadcast S1024x1024 (Scalar.ofBits (F := Ideal) .f32 0x00000000#32))) y
    (mulf (broadcast S1024x1024 (Scalar.ofBits (F := Ideal) .f32 0x3E4CCCCD#32)) y)

/-- The gated activation block [4,256,1024]. -/
private def gatedBlock (x0 : Vec Ideal S4x256x512 .f32) (x1 : Vec Ideal S1024x512 .f32) (x2 : Vec Ideal S1024 .f32)
    (x3 : Vec Ideal S256x1024 .f32) : FVec Ideal S4x256x1024 .f32 :=
  mulf (shapeCast S4x256x1024 (rect (preAct x0 x1 x2)) shapeCasts_S1024x1024_S4x256x1024)
    (broadcastTo S4x256x1024
      (shapeCast S1x256x1024 (shapeCast S256x1024 x3 shapeCasts_S256x1024_S256x1024) shapeCasts_S256x1024_S1x256x1024)
      broadcasts_S1x256x1024_S4x256x1024)

/-- The column of row means of a block. -/
private def meanCol (z : FVec Ideal S4x256x1024 .f32) : FVec Ideal S4x256x1 .f32 :=
  divf (shapeCast S4x256x1 (multiReduction (F := Ideal) .add [2] S4x256 z 0x00000000#32 reduces_S4x256x1024_S4x256 (.inl rfl) rfl) shapeCasts_S4x256_S4x256x1)
    (broadcast S4x256x1 (Scalar.ofBits (F := Ideal) .f32 0x44800000#32))

/-- The block of deviations from the row means. -/
private def dev (z : FVec Ideal S4x256x1024 .f32) : FVec Ideal S4x256x1024 .f32 :=
  subf z (broadcastTo S4x256x1024 (meanCol z) broadcasts_S4x256x1_S4x256x1024)

/-- The column of row variances of a block. -/
private def varCol (z : FVec Ideal S4x256x1024 .f32) : FVec Ideal S4x256x1 .f32 :=
  divf (shapeCast S4x256x1 (multiReduction (F := Ideal) .add [2] S4x256 (mulf (dev z) (dev z)) 0x00000000#32 reduces_S4x256x1024_S4x256 (.inl rfl) rfl) shapeCasts_S4x256_S4x256x1)
    (broadcast S4x256x1 (Scalar.ofBits (F := Ideal) .f32 0x44800000#32))

/-- The normalised block scaled by `g`. -/
private def normed (z : FVec Ideal S4x256x1024 .f32) (g : Vec Ideal S1024 .f32) : FVec Ideal S4x256x1024 .f32 :=
  mulf
    (mulf (dev z)
      (broadcastTo S4x256x1024
        (rsqrt (addf (varCol z) (broadcast S4x256x1 (Scalar.ofBits (F := Ideal) .f32 0x3727C5AC#32))))
        broadcasts_S4x256x1_S4x256x1024))
    (broadcastTo S4x256x1024 (shapeCast S1x1x1024 g shapeCasts_S1024_S1x1x1024) broadcasts_S1x1x1024_S4x256x1024)

/-- The kernel's value before the shift is the normalised gated block: the same operations, named. -/
private theorem pay2_eq (x0 : Vec Ideal S4x256x512 .f32) (x1 : Vec Ideal S1024x512 .f32) (x2 : Vec Ideal S1024 .f32)
    (x3 : Vec Ideal S256x1024 .f32) (x4 : Vec Ideal S1024 .f32) :
    k1_pay2 (F := Ideal) x0 x1 x2 x3 x4 = normed (gatedBlock x0 x1 x2 x3) x4 := rfl

private theorem preAct_apply (x0 : Vec Ideal S4x256x512 .f32) (x1 : Vec Ideal S1024x512 .f32) (x2 : Vec Ideal S1024 .f32)
    (a : Fin 4) (r : Fin 256) (d : Fin 1024) :
    preAct x0 x1 x2 (ix2 (flatRow a r) d)
      = dense (fun f : Fin 512 => x0 (ix3 a r f)) (fun f : Fin 512 => x1 (ix2 d f)) (x2 (ix1 d)) := by
  show matmul (φ₁ := .f32) (φ₂ := .f32) dot_S1024x512_S1024x512_S1024x1024_1_1_0_0_n_n (some .fp32)
        (shapeCast S1024x512 x0 shapeCasts_S4x256x512_S1024x512) x1 (constant (F := Ideal) S1024x1024 .f32 0x00000000#32)
        (ix2 (flatRow a r) d)
      + broadcastTo S1024x1024 (shapeCast S1x1024 x2 shapeCasts_S1024_S1x1024) broadcasts_S1x1024_S1024x1024
        (ix2 (flatRow a r) d) = _
  rw [mm_fused, bias_row_1024]
  unfold dense
  refine congrArg (fun s => s + x2 (ix1 d)) (Finset.sum_congr rfl fun f _ => ?_)
  exact congrArg (fun t => t * x1 (ix2 d f)) (flat_apply x0 a r f)

private theorem rect_apply (y : FVec Ideal S1024x1024 .f32) (i : S1024x1024.Idx) : rect y i = leaky (y i) := rfl

private theorem gatedBlock_apply (x0 : Vec Ideal S4x256x512 .f32) (x1 : Vec Ideal S1024x512 .f32) (x2 : Vec Ideal S1024 .f32)
    (x3 : Vec Ideal S256x1024 .f32) (a : Fin 4) (r : Fin 256) (d : Fin 1024) :
    gatedBlock x0 x1 x2 x3 (ix3 a r d)
      = leaky (dense (fun f : Fin 512 => x0 (ix3 a r f)) (fun f : Fin 512 => x1 (ix2 d f)) (x2 (ix1 d))) * x3 (ix2 r d) := by
  show shapeCast S4x256x1024 (rect (preAct x0 x1 x2)) shapeCasts_S1024x1024_S4x256x1024 (ix3 a r d)
      * broadcastTo S4x256x1024
          (shapeCast S1x256x1024 (shapeCast S256x1024 x3 shapeCasts_S256x1024_S256x1024) shapeCasts_S256x1024_S1x256x1024)
          broadcasts_S1x256x1024_S4x256x1024 (ix3 a r d) = _
  rw [unflat_apply, gate_apply, rect_apply, preAct_apply]

private theorem meanCol_apply (z : FVec Ideal S4x256x1024 .f32) (a : Fin 4) (r : Fin 256) :
    meanCol z (ix3 a r (0 : Fin 1)) = rowMean (fun k : Fin 1024 => z (ix3 a r k)) := by
  show Ideal.div (shapeCast S4x256x1 (multiReduction (F := Ideal) .add [2] S4x256 z 0x00000000#32 reduces_S4x256x1024_S4x256 (.inl rfl) rfl) shapeCasts_S4x256_S4x256x1 (ix3 a r (0 : Fin 1)))
      (Ideal.ofBits .f32 0x44800000#32) = _
  rw [sum_col_apply]
  rfl

private theorem dev_apply (z : FVec Ideal S4x256x1024 .f32) (a : Fin 4) (r : Fin 256) (d : Fin 1024) :
    dev z (ix3 a r d) = z (ix3 a r d) - rowMean (fun k : Fin 1024 => z (ix3 a r k)) := by
  show z (ix3 a r d) - broadcastTo S4x256x1024 (meanCol z) broadcasts_S4x256x1_S4x256x1024 (ix3 a r d) = _
  rw [col_apply, meanCol_apply]

private theorem varCol_apply (z : FVec Ideal S4x256x1024 .f32) (a : Fin 4) (r : Fin 256) :
    varCol z (ix3 a r (0 : Fin 1)) = rowVar (fun k : Fin 1024 => z (ix3 a r k)) := by
  show Ideal.div (shapeCast S4x256x1 (multiReduction (F := Ideal) .add [2] S4x256 (mulf (dev z) (dev z)) 0x00000000#32 reduces_S4x256x1024_S4x256 (.inl rfl) rfl) shapeCasts_S4x256_S4x256x1 (ix3 a r (0 : Fin 1)))
      (Ideal.ofBits .f32 0x44800000#32) = _
  rw [sum_col_apply]
  simp only [mulf_apply, dev_apply]
  rfl

private theorem normed_apply (z : FVec Ideal S4x256x1024 .f32) (g : Vec Ideal S1024 .f32) (a : Fin 4) (r : Fin 256) (d : Fin 1024) :
    normed z g (ix3 a r d)
      = (z (ix3 a r d) - rowMean (fun k : Fin 1024 => z (ix3 a r k)))
          * Ideal.rsqrt (rowVar (fun k : Fin 1024 => z (ix3 a r k)) + Ideal.ofBits .f32 0x3727C5AC#32) * g (ix1 d) := by
  show dev z (ix3 a r d)
      * broadcastTo S4x256x1024
          (rsqrt (addf (varCol z) (broadcast S4x256x1 (Scalar.ofBits (F := Ideal) .f32 0x3727C5AC#32))))
          broadcasts_S4x256x1_S4x256x1024 (ix3 a r d)
      * broadcastTo S4x256x1024 (shapeCast S1x1x1024 g shapeCasts_S1024_S1x1x1024) broadcasts_S1x1x1024_S4x256x1024 (ix3 a r d) = _
  rw [dev_apply, col_apply, vec_apply]
  show _ * Ideal.rsqrt (varCol z (ix3 a r (0 : Fin 1)) + Ideal.ofBits .f32 0x3727C5AC#32) * _ = _
  rw [varCol_apply]

/-- The fused kernel's stored block at `(a, r, d)`: the row `(a, r)` of the block, dense, rectified, gated by the
    gate block's row `r`, then normalised over its 1024 features. -/
theorem fused_entry (x0 : Vec Ideal S4x256x512 .f32) (x1 : Vec Ideal S1024x512 .f32) (x2 : Vec Ideal S1024 .f32)
    (x3 : Vec Ideal S256x1024 .f32) (x4 x5 : Vec Ideal S1024 .f32) (a : Fin 4) (r : Fin 256) (d : Fin 1024) :
    k1_pay1 (F := Ideal) (k1_pay2 (F := Ideal) x0 x1 x2 x3 x4) x5 (ix3 a r d)
      = rowNorm (fun d' : Fin 1024 => leaky (dense (fun f : Fin 512 => x0 (ix3 a r f)) (fun f : Fin 512 => x1 (ix2 d' f)) (x2 (ix1 d')))
            * x3 (ix2 r d'))
          (fun d' : Fin 1024 => x4 (ix1 d')) (fun d' : Fin 1024 => x5 (ix1 d')) d := by
  show k1_pay2 (F := Ideal) x0 x1 x2 x3 x4 (ix3 a r d)
      + broadcastTo S4x256x1024 (shapeCast S1x1x1024 x5 shapeCasts_S1024_S1x1x1024) broadcasts_S1x1x1024_S4x256x1024 (ix3 a r d) = _
  rw [pay2_eq, normed_apply, vec_apply]
  have hz : (fun k : Fin 1024 => gatedBlock x0 x1 x2 x3 (ix3 a r k))
      = fun d' : Fin 1024 => leaky (dense (fun f : Fin 512 => x0 (ix3 a r f)) (fun f : Fin 512 => x1 (ix2 d' f)) (x2 (ix1 d')))
            * x3 (ix2 r d') := funext fun k => gatedBlock_apply x0 x1 x2 x3 a r k
  rw [gatedBlock_apply, hz]
  rfl

end Cert.KernelIdeal.Payload

end
-- ==== Proof.GateArray.lean ====
/-
  The first launch's array. Point `t` of its grid of 8 loads rows `256 t … 256 t + 255` of the second input, the
  whole weight and the whole bias, and writes back rows `256 t … 256 t + 255` of the gate: every entry `(n, d)` of the
  array it leaves is the dense layer of the input's row `n` against the weight's row `d`, whatever the contents
  `V` the region is entered from.
-/
import proofs.«162037_j47029891891861_2_alg».proof.Proof.Gen.KernelIdeal.Frame
import proofs.«162037_j47029891891861_2_alg».proof.Proof.Payload
import Idealize.ShloMosaic.Lib.Pipeline.Value

set_option maxRecDepth 16384

noncomputable section

namespace Cert.KernelIdeal.GateArray

open Cert.KernelIdeal Cert.KernelIdeal.Gen Cert.GatedNorm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The gate as one array: entry `(n, d)` is the dense layer of row `n` of `st` against row `d` of `wc`. -/
def gateArr (st : S2048x256.Idx → EReal) (wc : S1024x256.Idx → EReal) (bc : S1024.Idx → EReal) : S2048x1024.Idx → EReal :=
  fun i => gateAt st wc bc (i 0) (i 1)

theorem gateArr_at (st : S2048x256.Idx → EReal) (wc : S1024x256.Idx → EReal) (bc : S1024.Idx → EReal)
    (i : S2048x1024.Idx) (n : Fin 2048) (d : Fin 1024) (h0 : (i 0).val = n.val) (h1 : (i 1).val = d.val) :
    gateArr st wc bc i = gateAt st wc bc n d := by
  have e : i = ix2 n d := funext fun a => Fin.ext (by match a with | ⟨0, _⟩ => exact h0 | ⟨1, _⟩ => exact h1)
  subst e; rfl

/-- The printed index maps over the grid: the input's row block moves with the output's, everything else stays at 0. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 7 :=
  (by decide +kernel : ∀ t : Fin grid0.N, _)

/-- Every row block of the gate is some point's. -/
theorem idx_onto : ∀ q0 : Fin 8, ∃ t : Fin cfg0.N, win0_3.index t = ![q0.val, 0] :=
  (by decide +kernel : ∀ q0 : Fin 8, ∃ t : Fin grid0.N, win0_3.index t = ![q0.val, 0])

/-- The input block's entry `(p, k)` is the array's entry `(256·(block row) + p, k)`. -/
theorem in_block (c : Dev nD) (t : Fin cfg0.N) (p : Fin 256) (k : Fin 256) (n : Fin 2048)
    (hn : n.val = win0_3.index t (0 : Fin 2) * 256 + p.val) :
    iblk0 V c 0 t (ix2 p k) = V c main_arg1 (ix2 n k) := by
  obtain ⟨e0, e1, -⟩ := idx_facts t
  unfold iblk0
  rw [View.read_apply]
  show V c main_arg1 _ = V c main_arg1 _
  congr 1
  funext a
  apply Fin.ext
  match a with
  | ⟨0, _⟩ => show win0_0.index t (0 : Fin 2) * 256 + 1 * p.val = n.val; rw [e0, hn]; omega
  | ⟨1, _⟩ => show win0_0.index t (1 : Fin 2) * 256 + 1 * k.val = k.val; rw [e1]; omega

/-- The weight's block is the whole weight. -/
theorem weight_block (c : Dev nD) (t : Fin cfg0.N) (q : Fin 1024) (k : Fin 256) :
    iblk0 V c 1 t (ix2 q k) = V c main_arg4 (ix2 q k) := by
  obtain ⟨-, -, e2, e3, -⟩ := idx_facts t
  unfold iblk0
  rw [View.read_apply]
  show V c main_arg4 _ = V c main_arg4 _
  congr 1
  funext a
  apply Fin.ext
  match a with
  | ⟨0, _⟩ => show win0_1.index t (0 : Fin 2) * 1024 + 1 * q.val = q.val; rw [e2]; omega
  | ⟨1, _⟩ => show win0_1.index t (1 : Fin 2) * 256 + 1 * k.val = k.val; rw [e3]; omega

/-- The bias's block is the whole bias. -/
theorem bias_block (c : Dev nD) (t : Fin cfg0.N) (q : Fin 1024) :
    iblk0 V c 2 t (ix1 q) = V c main_arg5 (ix1 q) := by
  obtain ⟨-, -, -, -, e4, -⟩ := idx_facts t
  unfold iblk0
  rw [View.read_apply]
  show V c main_arg5 _ = V c main_arg5 _
  congr 1
  funext a
  apply Fin.ext
  match a with
  | ⟨0, _⟩ => show win0_2.index t (0 : Fin 1) * 1024 + 1 * q.val = q.val; rw [e4]; omega

/-- What point `t` writes back is block `t` of the gate array. -/
theorem flushed_eq (c : Dev nD) (t : Fin cfg0.N) :
    (dat0 V c).flushed 3 t = ((cfg0.win 3).blk t).view.read (Elt Ideal)
      (gateArr (V c main_arg1) (V c main_arg4) (V c main_arg5)) := by
  show (cfg0.win 3).cut (grid0.coords t) ((dat0 V c).after 3 t) = _
  rw [after0_3]
  unfold out0_3
  rw [View.canon_unit_zero hz2]
  simp only [View.ld_unit_zero (S := S256x256) hz2, View.ld_unit_zero (S := S1024x256) hz2, View.ld_unit_zero (S := S1024) hz1]
  obtain ⟨-, -, -, -, -, e5, e6⟩ := idx_facts t
  funext y
  obtain ⟨p, q, rfl⟩ : ∃ (p : Fin 256) (q : Fin 1024), y = ix2 p q := ⟨y 0, y 1, eq_ix2 y⟩
  have hp : p.val < 256 := p.isLt
  refine (Payload.city_entry (iblk0 V c 0 t) (iblk0 V c 1 t) (iblk0 V c 2 t) p q).trans ?_
  rw [View.read_apply]
  refine Eq.trans ?_ (gateArr_at _ _ _ _ ⟨win0_3.index t (0 : Fin 2) * 256 + p.val, by omega⟩ q ?_ ?_).symm
  · unfold gateAt
    simp only [in_block V c t p _ ⟨win0_3.index t (0 : Fin 2) * 256 + p.val, by omega⟩ rfl, weight_block V c t q, bias_block V c t q]
  · show win0_3.index t (0 : Fin 2) * 256 + 1 * p.val = win0_3.index t (0 : Fin 2) * 256 + p.val; omega
  · show win0_3.index t (1 : Fin 2) * 1024 + 1 * q.val = q.val; rw [e5]; omega

/-- An index of the gate array is in point `t`'s block iff each coordinate is in the block's range. -/
theorem mem_blk (t : Fin cfg0.N) (i : S2048x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v0).slice (win0_3.rect t)).set ↔ _
  rw [View.set_slice_whole, Rect.mem_set_unit]
  exact Iff.rfl

/-- The eight row blocks cover the gate array: row `n` lies in the block of point `n / 256`. -/
theorem cover (i : S2048x1024.Idx) : ∃ t : Fin cfg0.N, (cfg0.win 3).flush t = true ∧ i ∈ ((cfg0.win 3).blk t).view.set := by
  have hi0 : (i 0).val < 2048 := (i 0).isLt
  have hi1 : (i 1).val < 1024 := (i 1).isLt
  obtain ⟨t, ht⟩ := idx_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

/-- The array the first launch leaves is the gate array of the contents it was entered from. -/
theorem final (c : Dev nD) :
    (dat0 V c).arrAt 3 cfg0.N = gateArr (V c main_arg1) (V c main_arg4) (V c main_arg5) :=
  (dat0 V c).arrAt_eq_of_cover 3 _ (fun t _ => flushed_eq V c t) cover

end Cert.KernelIdeal.GateArray

end
-- ==== Proof.ResultArray.lean ====
/-
  The second launch's array. Its grid is 8 × 8: point `(i, j)` loads the block of 4 batch entries `4 j … 4 j + 3` and
  256 rows `256 i … 256 i + 255` of the first input, rows `256 i … 256 i + 255` of the gate array, the whole weight,
  bias, scale and shift, and writes back the same block of the result. Every entry `(b, n, d)` of the array it leaves
  is the normalised gated row `(b, n)` at feature `d`, the gate read from the array the region finds, whatever
  the contents `V` it is entered from.
-/
import proofs.«162037_j47029891891861_2_alg».proof.Proof.Gen.KernelIdeal.Frame
import proofs.«162037_j47029891891861_2_alg».proof.Proof.Payload
import Idealize.ShloMosaic.Lib.Pipeline.Value

set_option maxRecDepth 16384

noncomputable section

namespace Cert.KernelIdeal.ResultArray

open Cert.KernelIdeal Cert.KernelIdeal.Gen Cert.GatedNorm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The result as one array, the gate read from an array `C`: entry `(b, n, d)` is the normalised gated row. -/
def outArr (x : S32x2048x512.Idx → EReal) (wf : S1024x512.Idx → EReal) (bf : S1024.Idx → EReal)
    (C : S2048x1024.Idx → EReal) (g bt : S1024.Idx → EReal) : S32x2048x1024.Idx → EReal :=
  fun i => outAt x wf bf (fun n d => C (ix2 n d)) g bt (i 0) (i 1) (i 2)

theorem outArr_at (x : S32x2048x512.Idx → EReal) (wf : S1024x512.Idx → EReal) (bf : S1024.Idx → EReal)
    (C : S2048x1024.Idx → EReal) (g bt : S1024.Idx → EReal) (i : S32x2048x1024.Idx)
    (b : Fin 32) (n : Fin 2048) (d : Fin 1024) (h0 : (i 0).val = b.val) (h1 : (i 1).val = n.val) (h2 : (i 2).val = d.val) :
    outArr x wf bf C g bt i = outAt x wf bf (fun n d => C (ix2 n d)) g bt b n d := by
  have e : i = ix3 b n d := funext fun a => Fin.ext (by match a with | ⟨0, _⟩ => exact h0 | ⟨1, _⟩ => exact h1 | ⟨2, _⟩ => exact h2)
  subst e; rfl

/-- The printed index maps over the grid: the input's block and the gate's row block move with the output's block, the
    other operands stay whole. -/
theorem idx_facts : ∀ t : Fin cfg1.N, win1_0.index t (0 : Fin 3) = win1_6.index t (0 : Fin 3)
    ∧ win1_0.index t (1 : Fin 3) = win1_6.index t (1 : Fin 3) ∧ win1_0.index t (2 : Fin 3) = 0
    ∧ win1_1.index t (0 : Fin 2) = 0 ∧ win1_1.index t (1 : Fin 2) = 0
    ∧ win1_2.index t (0 : Fin 1) = 0
    ∧ win1_3.index t (0 : Fin 2) = win1_6.index t (1 : Fin 3) ∧ win1_3.index t (1 : Fin 2) = 0
    ∧ win1_4.index t (0 : Fin 1) = 0 ∧ win1_5.index t (0 : Fin 1) = 0
    ∧ win1_6.index t (2 : Fin 3) = 0 ∧ win1_6.index t (0 : Fin 3) ≤ 7 ∧ win1_6.index t (1 : Fin 3) ≤ 7 :=
  (by decide +kernel : ∀ t : Fin grid1.N, _)

/-- Every block of the result is some point's. -/
theorem idx_onto : ∀ (q0 : Fin 8) (q1 : Fin 8), ∃ t : Fin cfg1.N, win1_6.index t = ![q0.val, q1.val, 0] :=
  (by decide +kernel : ∀ (q0 : Fin 8) (q1 : Fin 8), ∃ t : Fin grid1.N, win1_6.index t = ![q0.val, q1.val, 0])

/-- The input block's entry `(a, r, f)` is the array's entry `(4·(batch block) + a, 256·(row block) + r, f)`. -/
theorem in_block (c : Dev nD) (t : Fin cfg1.N) (a : Fin 4) (r : Fin 256) (f : Fin 512) (b : Fin 32) (n : Fin 2048)
    (hb : b.val = win1_6.index t (0 : Fin 3) * 4 + a.val) (hn : n.val = win1_6.index t (1 : Fin 3) * 256 + r.val) :
    iblk1 V c 0 t (ix3 a r f) = V c main_arg0 (ix3 b n f) := by
  obtain ⟨e0, e1, e2, -⟩ := idx_facts t
  unfold iblk1
  rw [View.read_apply]
  show V c main_arg0 _ = V c main_arg0 _
  congr 1
  funext ax
  apply Fin.ext
  match ax with
  | ⟨0, _⟩ => show win1_0.index t (0 : Fin 3) * 4 + 1 * a.val = b.val; rw [e0, hb]; omega
  | ⟨1, _⟩ => show win1_0.index t (1 : Fin 3) * 256 + 1 * r.val = n.val; rw [e1, hn]; omega
  | ⟨2, _⟩ => show win1_0.index t (2 : Fin 3) * 512 + 1 * f.val = f.val; rw [e2]; omega

/-- The weight's block is the whole weight. -/
theorem weight_block (c : Dev nD) (t : Fin cfg1.N) (q : Fin 1024) (f : Fin 512) :
    iblk1 V c 1 t (ix2 q f) = V c main_arg2 (ix2 q f) := by
  obtain ⟨-, -, -, e3, e4, -⟩ := idx_facts t
  unfold iblk1
  rw [View.read_apply]
  show V c main_arg2 _ = V c main_arg2 _
  congr 1
  funext ax
  apply Fin.ext
  match ax with
  | ⟨0, _⟩ => show win1_1.index t (0 : Fin 2) * 1024 + 1 * q.val = q.val; rw [e3]; omega
  | ⟨1, _⟩ => show win1_1.index t (1 : Fin 2) * 512 + 1 * f.val = f.val; rw [e4]; omega

/-- The bias's block is the whole bias. -/
theorem bias_block (c : Dev nD) (t : Fin cfg1.N) (q : Fin 1024) :
    iblk1 V c 2 t (ix1 q) = V c main_arg3 (ix1 q) := by
  obtain ⟨-, -, -, -, -, e5, -⟩ := idx_facts t
  unfold iblk1
  rw [View.read_apply]
  show V c main_arg3 _ = V c main_arg3 _
  congr 1
  funext ax
  apply Fin.ext
  match ax with
  | ⟨0, _⟩ => show win1_2.index t (0 : Fin 1) * 1024 + 1 * q.val = q.val; rw [e5]; omega

/-- The gate block's entry `(r, q)` is the gate array's entry `(256·(row block) + r, q)`. -/
theorem gate_block (c : Dev nD) (t : Fin cfg1.N) (r : Fin 256) (q : Fin 1024) (n : Fin 2048)
    (hn : n.val = win1_6.index t (1 : Fin 3) * 256 + r.val) :
    iblk1 V c 3 t (ix2 r q) = V c main_v0 (ix2 n q) := by
  obtain ⟨-, -, -, -, -, -, e6, e7, -⟩ := idx_facts t
  unfold iblk1
  rw [View.read_apply]
  show V c main_v0 _ = V c main_v0 _
  congr 1
  funext ax
  apply Fin.ext
  match ax with
  | ⟨0, _⟩ => show win1_3.index t (0 : Fin 2) * 256 + 1 * r.val = n.val; rw [e6, hn]; omega
  | ⟨1, _⟩ => show win1_3.index t (1 : Fin 2) * 1024 + 1 * q.val = q.val; rw [e7]; omega

/-- The scale's block is the whole scale. -/
theorem scale_block (c : Dev nD) (t : Fin cfg1.N) (q : Fin 1024) :
    iblk1 V c 4 t (ix1 q) = V c main_arg6 (ix1 q) := by
  obtain ⟨-, -, -, -, -, -, -, -, e8, -⟩ := idx_facts t
  unfold iblk1
  rw [View.read_apply]
  show V c main_arg6 _ = V c main_arg6 _
  congr 1
  funext ax
  apply Fin.ext
  match ax with
  | ⟨0, _⟩ => show win1_4.index t (0 : Fin 1) * 1024 + 1 * q.val = q.val; rw [e8]; omega

/-- The shift's block is the whole shift. -/
theorem shift_block (c : Dev nD) (t : Fin cfg1.N) (q : Fin 1024) :
    iblk1 V c 5 t (ix1 q) = V c main_arg7 (ix1 q) := by
  obtain ⟨-, -, -, -, -, -, -, -, -, e9, -⟩ := idx_facts t
  unfold iblk1
  rw [View.read_apply]
  show V c main_arg7 _ = V c main_arg7 _
  congr 1
  funext ax
  apply Fin.ext
  match ax with
  | ⟨0, _⟩ => show win1_5.index t (0 : Fin 1) * 1024 + 1 * q.val = q.val; rw [e9]; omega

/-- What point `t` writes back is block `t` of the result array. -/
theorem flushed_eq (c : Dev nD) (t : Fin cfg1.N) :
    (dat1 V c).flushed 6 t = ((cfg1.win 6).blk t).view.read (Elt Ideal)
      (outArr (V c main_arg0) (V c main_arg2) (V c main_arg3) (V c main_v0) (V c main_arg6) (V c main_arg7)) := by
  show (cfg1.win 6).cut (grid1.coords t) ((dat1 V c).after 6 t) = _
  rw [after1_6]
  unfold out1_6
  rw [View.canon_unit_zero hz3]
  simp only [View.ld_unit_zero (S := S4x256x512) hz3, View.ld_unit_zero (S := S1024x512) hz2, View.ld_unit_zero (S := S256x1024) hz2, View.ld_unit_zero (S := S1024) hz1]
  obtain ⟨-, -, -, -, -, -, -, -, -, -, e10, e11, e12⟩ := idx_facts t
  funext y
  obtain ⟨a, r, d, rfl⟩ : ∃ (a : Fin 4) (r : Fin 256) (d : Fin 1024), y = ix3 a r d := ⟨y 0, y 1, y 2, eq_ix3 y⟩
  have ha : a.val < 4 := a.isLt
  have hr : r.val < 256 := r.isLt
  refine (Payload.fused_entry (iblk1 V c 0 t) (iblk1 V c 1 t) (iblk1 V c 2 t) (iblk1 V c 3 t) (iblk1 V c 4 t) (iblk1 V c 5 t) a r d).trans ?_
  rw [View.read_apply]
  refine Eq.trans ?_ (outArr_at _ _ _ _ _ _ _ ⟨win1_6.index t (0 : Fin 3) * 4 + a.val, by omega⟩
    ⟨win1_6.index t (1 : Fin 3) * 256 + r.val, by omega⟩ d ?_ ?_ ?_).symm
  · unfold outAt gated
    simp only [in_block V c t a r _ ⟨win1_6.index t (0 : Fin 3) * 4 + a.val, by omega⟩ ⟨win1_6.index t (1 : Fin 3) * 256 + r.val, by omega⟩ rfl rfl,
      weight_block V c t, bias_block V c t, gate_block V c t r _ ⟨win1_6.index t (1 : Fin 3) * 256 + r.val, by omega⟩ rfl,
      scale_block V c t, shift_block V c t]
  · show win1_6.index t (0 : Fin 3) * 4 + 1 * a.val = win1_6.index t (0 : Fin 3) * 4 + a.val; omega
  · show win1_6.index t (1 : Fin 3) * 256 + 1 * r.val = win1_6.index t (1 : Fin 3) * 256 + r.val; omega
  · show win1_6.index t (2 : Fin 3) * 1024 + 1 * d.val = d.val; rw [e10]; omega

/-- An index of the result array is in point `t`'s block iff each coordinate is in the block's range. -/
theorem mem_blk (t : Fin cfg1.N) (i : S32x2048x1024.Idx) :
    i ∈ ((cfg1.win 6).blk t).view.set ↔ ∀ a : Fin 3, win1_6.index t a * S4x256x1024.size a ≤ (i a).val ∧ (i a).val < win1_6.index t a * S4x256x1024.size a + S4x256x1024.size a := by
  show i ∈ ((View.whole main_v1).slice (win1_6.rect t)).set ↔ _
  rw [View.set_slice_whole, Rect.mem_set_unit]
  exact Iff.rfl

/-- The 64 blocks cover the result array: entry `(b, n, ·)` lies in the block of batch block `b / 4`, row block `n / 256`. -/
theorem cover (i : S32x2048x1024.Idx) : ∃ t : Fin cfg1.N, (cfg1.win 6).flush t = true ∧ i ∈ ((cfg1.win 6).blk t).view.set := by
  have hi0 : (i 0).val < 32 := (i 0).isLt
  have hi1 : (i 1).val < 2048 := (i 1).isLt
  have hi2 : (i 2).val < 1024 := (i 2).isLt
  obtain ⟨t, ht⟩ := idx_onto ⟨(i 0).val / 4, by omega⟩ ⟨(i 1).val / 256, by omega⟩
  have q0 : win1_6.index t (0 : Fin 3) = (i 0).val / 4 := congrFun ht 0
  have q1 : win1_6.index t (1 : Fin 3) = (i 1).val / 256 := congrFun ht 1
  have q2 : win1_6.index t (2 : Fin 3) = 0 := congrFun ht 2
  refine ⟨t, flush1_6 t, ?_⟩
  rw [mem_blk]
  intro a
  match a with
  | ⟨0, _⟩ => show win1_6.index t (0 : Fin 3) * 4 ≤ (i 0).val ∧ (i 0).val < win1_6.index t (0 : Fin 3) * 4 + 4; omega
  | ⟨1, _⟩ => show win1_6.index t (1 : Fin 3) * 256 ≤ (i 1).val ∧ (i 1).val < win1_6.index t (1 : Fin 3) * 256 + 256; omega
  | ⟨2, _⟩ => show win1_6.index t (2 : Fin 3) * 1024 ≤ (i 2).val ∧ (i 2).val < win1_6.index t (2 : Fin 3) * 1024 + 1024; omega

/-- The array the second launch leaves is the result array of the contents it was entered from. -/
theorem final (c : Dev nD) :
    (dat1 V c).arrAt 6 cfg1.N
      = outArr (V c main_arg0) (V c main_arg2) (V c main_arg3) (V c main_v0) (V c main_arg6) (V c main_arg7) :=
  (dat1 V c).arrAt_eq_of_cover 6 _ (fun t _ => flushed_eq V c t) cover

end Cert.KernelIdeal.ResultArray

end
-- ==== Proof.KernelValue.lean ====
/-
  The result array of the whole program as one function of the eight argument arrays: the second launch's array,
  the gate it reads being the first launch's array and every other operand an argument neither launch writes.
-/
import proofs.«162037_j47029891891861_2_alg».proof.Proof.KernelRun
import proofs.«162037_j47029891891861_2_alg».proof.Proof.GateArray
import proofs.«162037_j47029891891861_2_alg».proof.Proof.ResultArray

set_option maxRecDepth 16384

noncomputable section

namespace Cert.KernelIdeal.Named

open Cert.KernelIdeal Cert.KernelIdeal.Gen Cert.GatedNorm
open Idealize.ShloMosaic Idealize.ShloMosaic.TcCoe Idealize.ShloMosaic.ValueIdx Idealize.SL.Sem

variable (m : (ℓ : Loc nD τ sig) → Buf (Elt Ideal) ℓ) (ρ : Dev nD → PrngReg)

/-- The result as a function of the launch memory: the normalised gated rows, the gate the dense layer of the second input. -/
def result (c : Dev nD) : Buf (Elt Ideal) ((c.tc : Thread nD τ).loc main_v1) :=
  ResultArray.outArr (m ((c.tc : Thread nD τ).loc main_arg0)) (m ((c.tc : Thread nD τ).loc main_arg2)) (m ((c.tc : Thread nD τ).loc main_arg3))
    (GateArray.gateArr (m ((c.tc : Thread nD τ).loc main_arg1)) (m ((c.tc : Thread nD τ).loc main_arg4)) (m ((c.tc : Thread nD τ).loc main_arg5)))
    (m ((c.tc : Thread nD τ).loc main_arg6)) (m ((c.tc : Thread nD τ).loc main_arg7))

/-- What the second region finds: the arguments it reads as launched (the first region writes none of them), the gate
    array as the first region left it. -/
theorem entry_arg0 (c : Dev nD) : V1 m ρ c main_arg0 = m ((c.tc : Thread nD τ).loc main_arg0) := W1_of_ne m ρ c main_arg0 (by decide)
theorem entry_arg2 (c : Dev nD) : V1 m ρ c main_arg2 = m ((c.tc : Thread nD τ).loc main_arg2) := W1_of_ne m ρ c main_arg2 (by decide)
theorem entry_arg3 (c : Dev nD) : V1 m ρ c main_arg3 = m ((c.tc : Thread nD τ).loc main_arg3) := W1_of_ne m ρ c main_arg3 (by decide)
theorem entry_arg6 (c : Dev nD) : V1 m ρ c main_arg6 = m ((c.tc : Thread nD τ).loc main_arg6) := W1_of_ne m ρ c main_arg6 (by decide)
theorem entry_arg7 (c : Dev nD) : V1 m ρ c main_arg7 = m ((c.tc : Thread nD τ).loc main_arg7) := W1_of_ne m ρ c main_arg7 (by decide)
theorem entry_gate (c : Dev nD) : V1 m ρ c main_v0
    = GateArray.gateArr (m ((c.tc : Thread nD τ).loc main_arg1)) (m ((c.tc : Thread nD τ).loc main_arg4)) (m ((c.tc : Thread nD τ).loc main_arg5)) :=
  (W1_arr m ρ c 3).trans (GateArray.final (V0 m ρ) c)

/-- The contents after the second region, at the result's buffer, are `result`. -/
theorem result_eq (c : Dev nD) : W2 m ρ c (Proc.devRef .tc main_v1) = result m c := by
  refine (W2_arr m ρ c 6).trans ((ResultArray.final (V1 m ρ) c).trans ?_)
  rw [entry_arg0, entry_arg2, entry_arg3, entry_arg6, entry_arg7, entry_gate]
  rfl

/-- The run with the result as that function of the arguments, the arguments unchanged. -/
theorem value_run : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_eq m ρ c), (h c).2⟩) (run (F := Ideal) m ρ)

end Cert.KernelIdeal.Named

end
-- ==== Proof.RefEntry.lean ====
/-
  The reference's result, read at one entry, is the gated row normalisation of the specification, its gate the
  dense layer of the second input.
-/
import proofs.«162037_j47029891891861_2_alg».proof.Proof.Gen.ReferenceIdeal.Read
import proofs.«162037_j47029891891861_2_alg».proof.Proof.Spec

noncomputable section

namespace Cert.ReferenceIdeal.RefValue

open Cert.ReferenceIdeal Cert.ReferenceIdeal.Read Cert.GatedNorm Idealize.ShloMosaic Idealize.ShloMosaic.ValueIdx

section Stages

variable (x0 : (⟨S32x2048x512, .f32⟩ : BufTy).Contents (Elt Ideal)) (x1 : (⟨S2048x256, .f32⟩ : BufTy).Contents (Elt Ideal))
    (x2 : (⟨S1024x512, .f32⟩ : BufTy).Contents (Elt Ideal)) (x3 : (⟨S1024, .f32⟩ : BufTy).Contents (Elt Ideal))
    (x4 : (⟨S1024x256, .f32⟩ : BufTy).Contents (Elt Ideal)) (x5 x6 x7 : (⟨S1024, .f32⟩ : BufTy).Contents (Elt Ideal))
    (b : Fin 32) (n : Fin 2048) (d : Fin 1024)

/-- The first dense layer at entry (b, n, d): the contraction over the 512 input features plus the bias at d. -/
private theorem dense_entry :
    val_main_v3 (F := Ideal) x0 x2 x3 (ix3 b n d)
      = dense (fun f : Fin 512 => x0 (ix3 b n f)) (fun f : Fin 512 => x2 (ix2 d f)) (x3 (ix1 d)) := by
  rw [val_main_v3_apply, val_main_v0_apply, val_main_v2_apply, val_main_v1_apply, Ideal.addf_def]
  unfold dense
  refine congrArg₂ (· + ·) (Finset.sum_congr rfl fun k _ => congrArg₂ (· * ·) (congrArg x0 ?_) (congrArg x2 ?_)) (congrArg x3 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The rectified first dense layer at entry (b, n, d): the comparison is against the zero word, the slope is the
    literal's word, both left as written. -/
private theorem leaky_entry :
    val_main_v8 (F := Ideal) x0 x2 x3 (ix3 b n d)
      = leaky (dense (fun f : Fin 512 => x0 (ix3 b n f)) (fun f : Fin 512 => x2 (ix2 d f)) (x3 (ix1 d))) := by
  rw [val_main_v8_apply, val_main_v5_apply, val_main_v7_apply, val_main_v4_apply, val_main_v6_apply,
    val_main_cst_apply, val_main_cst_0_apply, dense_entry]
  rfl

/-- The gate at entry (n, d): the second dense layer, a contraction over 256 features plus its bias at d. -/
private theorem gate_entry2 :
    val_main_v12 (F := Ideal) x1 x4 x5 (ix2 n d) = gateAt x1 x4 x5 n d := by
  rw [val_main_v12_apply, val_main_v9_apply, val_main_v11_apply, val_main_v10_apply, Ideal.addf_def]
  unfold gateAt dense
  refine congrArg₂ (· + ·) (Finset.sum_congr rfl fun k _ => congrArg₂ (· * ·) (congrArg x1 ?_) (congrArg x4 ?_)) (congrArg x5 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The gate repeated along the batch axis: entry (b, n, d) is the gate's entry (n, d). -/
private theorem gate_entry :
    val_main_v14 (F := Ideal) x1 x4 x5 (ix3 b n d) = gateAt x1 x4 x5 n d := by
  rw [val_main_v14_apply, val_main_v13_apply]
  refine (congrArg (val_main_v12 (F := Ideal) x1 x4 x5) ?_).trans (gate_entry2 x1 x4 x5 n d)
  exact funext fun a => Fin.ext (by match a with | ⟨0, _⟩ => rfl | ⟨1, _⟩ => rfl)

/-- The gated activation at entry (b, n, d). -/
private theorem gated_entry :
    val_main_v15 (F := Ideal) x0 x1 x2 x3 x4 x5 (ix3 b n d) = gated x0 x2 x3 (gateAt x1 x4 x5) b n d := by
  rw [val_main_v15_apply, leaky_entry, gate_entry, Ideal.mulf_def]
  rfl

/-- The row's mean: the sum of the 1024 gated entries of row (b, n), started from the zero word, over the literal 1024. -/
private theorem mean_entry :
    val_main_v19 (F := Ideal) x0 x1 x2 x3 x4 x5 (ix3 b n (0 : Fin 1)) = rowMean (gated x0 x2 x3 (gateAt x1 x4 x5) b n) := by
  rw [val_main_v19_apply, val_main_v17_apply, val_main_v16_apply, val_main_v18_apply, val_main_cst_1_apply,
    val_main_cst_2_apply]
  simp only [Ideal.hostDivf_def, Ideal.ofBits_def, Ideal.ofBits_zero_f32, zero_add]
  unfold rowMean
  refine congrArg (fun s => Ideal.div s (Ideal.ofBits .f32 0x44800000#32)) (Finset.sum_congr rfl fun k _ => ?_)
  refine (congrArg (val_main_v15 (F := Ideal) x0 x1 x2 x3 x4 x5) ?_).trans (gated_entry x0 x1 x2 x3 x4 x5 b n k)
  exact funext fun a => Fin.ext (by match a with | ⟨0, _⟩ => rfl | ⟨1, _⟩ => rfl | ⟨2, _⟩ => rfl)

/-- The mean repeated along the feature axis (first copy). -/
private theorem mean_bcast :
    val_main_v20 (F := Ideal) x0 x1 x2 x3 x4 x5 (ix3 b n d) = rowMean (gated x0 x2 x3 (gateAt x1 x4 x5) b n) := by
  rw [val_main_v20_apply]
  refine (congrArg (val_main_v19 (F := Ideal) x0 x1 x2 x3 x4 x5) ?_).trans (mean_entry x0 x1 x2 x3 x4 x5 b n)
  exact funext fun a => Fin.ext (by match a with | ⟨0, _⟩ => rfl | ⟨1, _⟩ => rfl | ⟨2, _⟩ => rfl)

/-- The mean repeated along the feature axis (second copy). -/
private theorem mean_bcast' :
    val_main_v27 (F := Ideal) x0 x1 x2 x3 x4 x5 (ix3 b n d) = rowMean (gated x0 x2 x3 (gateAt x1 x4 x5) b n) := by
  rw [val_main_v27_apply]
  refine (congrArg (val_main_v19 (F := Ideal) x0 x1 x2 x3 x4 x5) ?_).trans (mean_entry x0 x1 x2 x3 x4 x5 b n)
  exact funext fun a => Fin.ext (by match a with | ⟨0, _⟩ => rfl | ⟨1, _⟩ => rfl | ⟨2, _⟩ => rfl)

/-- The deviation from the row's mean at entry (b, n, d), as the variance uses it. -/
private theorem dev_entry :
    val_main_v21 (F := Ideal) x0 x1 x2 x3 x4 x5 (ix3 b n d) = (gated x0 x2 x3 (gateAt x1 x4 x5) b n) d - rowMean (gated x0 x2 x3 (gateAt x1 x4 x5) b n) := by
  rw [val_main_v21_apply, gated_entry, mean_bcast, Ideal.subf_def]

/-- The deviation from the row's mean at entry (b, n, d), as the result uses it. -/
private theorem dev_entry' :
    val_main_v28 (F := Ideal) x0 x1 x2 x3 x4 x5 (ix3 b n d) = (gated x0 x2 x3 (gateAt x1 x4 x5) b n) d - rowMean (gated x0 x2 x3 (gateAt x1 x4 x5) b n) := by
  rw [val_main_v28_apply, gated_entry, mean_bcast', Ideal.subf_def]

/-- The row's variance: the sum of the squared deviations, started from the zero word, over the literal 1024. -/
private theorem var_entry :
    val_main_v26 (F := Ideal) x0 x1 x2 x3 x4 x5 (ix3 b n (0 : Fin 1)) = rowVar (gated x0 x2 x3 (gateAt x1 x4 x5) b n) := by
  rw [val_main_v26_apply, val_main_v24_apply, val_main_v23_apply, val_main_v25_apply, val_main_cst_3_apply,
    val_main_cst_4_apply]
  simp only [Ideal.hostDivf_def, Ideal.ofBits_def, Ideal.ofBits_zero_f32, zero_add]
  unfold rowVar
  refine congrArg (fun s => Ideal.div s (Ideal.ofBits .f32 0x44800000#32)) (Finset.sum_congr rfl fun k _ => ?_)
  have e : val_main_v21 (F := Ideal) x0 x1 x2 x3 x4 x5 (idx_main_v23 (idx_main_v24 (ix3 b n (0 : Fin 1))) k)
      = (gated x0 x2 x3 (gateAt x1 x4 x5) b n) k - rowMean (gated x0 x2 x3 (gateAt x1 x4 x5) b n) :=
    (congrArg (val_main_v21 (F := Ideal) x0 x1 x2 x3 x4 x5) (funext fun a => Fin.ext (by match a with | ⟨0, _⟩ => rfl | ⟨1, _⟩ => rfl | ⟨2, _⟩ => rfl))).trans (dev_entry x0 x1 x2 x3 x4 x5 b n k)
  rw [val_main_v22_apply, Ideal.mulf_def, e]

/-- The reciprocal root of variance plus ε, repeated along the feature axis. -/
private theorem rsqrt_entry :
    val_main_v32 (F := Ideal) x0 x1 x2 x3 x4 x5 (ix3 b n d)
      = Ideal.rsqrt (rowVar (gated x0 x2 x3 (gateAt x1 x4 x5) b n) + Ideal.ofBits .f32 0x3727C5AC#32) := by
  have e : val_main_v26 (F := Ideal) x0 x1 x2 x3 x4 x5 (idx_main_v32 (ix3 b n d)) = rowVar (gated x0 x2 x3 (gateAt x1 x4 x5) b n) :=
    (congrArg (val_main_v26 (F := Ideal) x0 x1 x2 x3 x4 x5) (funext fun a => Fin.ext (by match a with | ⟨0, _⟩ => rfl | ⟨1, _⟩ => rfl | ⟨2, _⟩ => rfl))).trans (var_entry x0 x1 x2 x3 x4 x5 b n)
  rw [val_main_v32_apply, val_main_v31_apply, val_main_v30_apply, val_main_v29_apply, val_main_cst_5_apply, e]
  simp only [Ideal.hostUnary_rsqrt_def, Ideal.addf_def, Ideal.ofBits_def]

end Stages

theorem result_entry (x0 : (⟨S32x2048x512, .f32⟩ : BufTy).Contents (Elt Ideal)) (x1 : (⟨S2048x256, .f32⟩ : BufTy).Contents (Elt Ideal))
    (x2 : (⟨S1024x512, .f32⟩ : BufTy).Contents (Elt Ideal)) (x3 : (⟨S1024, .f32⟩ : BufTy).Contents (Elt Ideal))
    (x4 : (⟨S1024x256, .f32⟩ : BufTy).Contents (Elt Ideal)) (x5 x6 x7 : (⟨S1024, .f32⟩ : BufTy).Contents (Elt Ideal))
    (b : Fin 32) (n : Fin 2048) (d : Fin 1024) :
    val_main_v39 (F := Ideal) x0 x1 x2 x3 x4 x5 x6 x7 (ix3 b n d) = outAt x0 x2 x3 (gateAt x1 x4 x5) x6 x7 b n d := by
  rw [val_main_v39_apply, val_main_v36_apply, val_main_v33_apply, dev_entry', rsqrt_entry, val_main_v35_apply,
    val_main_v34_apply, val_main_v38_apply, val_main_v37_apply]
  simp only [Ideal.addf_def, Ideal.mulf_def]
  unfold outAt rowNorm
  refine congrArg₂ (· + ·) (congrArg₂ (· * ·) rfl (congrArg x6 ?_)) (congrArg x7 ?_)
  · exact funext fun a => Fin.ext (by match a with | ⟨0, _⟩ => rfl)
  · exact funext fun a => Fin.ext (by match a with | ⟨0, _⟩ => rfl)

end Cert.ReferenceIdeal.RefValue

end
-- ==== Proof.lean ====
/-
  The certificate's five claims for a feature decoder: a dense layer with a leaky rectifier, gated entrywise by a
  second dense layer, then normalised over its 1024 features. The kernel computes the gate in a first launch (8 row
  blocks) and everything else in a second (an 8 × 8 grid of blocks of 4 batch entries by 256 rows); the reference is
  the same chain of whole-array operations. On the extended reals the two agree operation by operation — a matrix
  product is the plain sum over the contracted axis on both sides, a lane sum is the plain sum over the row, the
  literals are the same words — so no law of arithmetic beyond reading each side entry by entry is used, and the
  precondition is never opened.

  * The frames of the two kernel programs are the generated frame certificates; the reference's frame is its generated
    run with the result dropped.
  * The idealized kernel is the kernel's own text read at the extended reals: nothing was rewritten, so there is
    nothing to preserve.
  * The algebraic claim: the kernel's result array after both launches is `Named.result` (the blocks' write-backs
    cover the array, each block a restriction of one whole-array function), and the reference's composed term read at
    an entry is the same specification (`RefValue.result_entry`).
-/
import proofs.«162037_j47029891891861_2_alg».proof.Defs
import proofs.«162037_j47029891891861_2_alg».proof.Proof.Gen.Kernel
import proofs.«162037_j47029891891861_2_alg».proof.Proof.Gen.Kernel.Frame
import proofs.«162037_j47029891891861_2_alg».proof.Proof.Gen.KernelIdeal
import proofs.«162037_j47029891891861_2_alg».proof.Proof.Gen.KernelIdeal.Frame
import proofs.«162037_j47029891891861_2_alg».proof.Proof.Gen.ReferenceIdeal
import proofs.«162037_j47029891891861_2_alg».proof.Proof.Gen.ReferenceIdeal.Run
import proofs.«162037_j47029891891861_2_alg».proof.Proof.Gen.ReferenceIdeal.Read
import proofs.«162037_j47029891891861_2_alg».proof.Proof.Gen.Pre_finite_inputs
import proofs.«162037_j47029891891861_2_alg».proof.Proof.KernelValue
import proofs.«162037_j47029891891861_2_alg».proof.Proof.RefEntry
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, run from memories that agree on the arguments, end with the result array at the specification's
    function of the arguments: the kernel by its two launches' covers, the reference by its composed term read at an entry. -/
theorem algebraic : Cert.algebraic_KernelIdeal_ReferenceIdeal := by
  intro m ρ m' ρ' _ hagree
  refine ⟨fun c => Cert.KernelIdeal.Named.result m c, Cert.KernelIdeal.Named.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq]
  obtain ⟨e0, e1, e2, e3, e4, e5, e6, e7⟩ := hagree c
  rw [e0, e1, e2, e3, e4, e5, e6, e7]
  funext i
  obtain ⟨b, n, d, rfl⟩ : ∃ (b : Fin 32) (n : Fin 2048) (d : Fin 1024), i = ix3 b n d := ⟨i 0, i 1, i 2, eq_ix3 i⟩
  exact Cert.ReferenceIdeal.RefValue.result_entry _ _ _ _ _ _ _ _ b n d

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
